-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x16 .f32) (main_arg3 : FVec F S16x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x16 : Shape := ⟨2, ![100000, 16]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000x16 : Shape := ⟨2, ![2000, 16]⟩
abbrev S2000x1 : Shape := ⟨2, ![2000, 1]⟩

abbrev nBuf : Space → Nat
  | .hbm => 41
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x16, .f32⟩
  | .hbm, ⟨28, _⟩ => ⟨S1600000x1, .i32⟩
  | .hbm, ⟨29, _⟩ => ⟨S100000x16, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S100000x1, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x16, .f32⟩
  | .local _ .vmem, ⟨3, _⟩ => ⟨S2000x16, .f32⟩
  | .local _ .vmem, ⟨4, _⟩ => ⟨S2000x1, .f32⟩
  | .local _ .vmem, ⟨5, _⟩ => ⟨S2000x1, .f32⟩
  | .local _ .vmem, ⟨6, _⟩ => ⟨S16x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x16 : S_.BroadcastsInDim S100000x16 (![] : Fin 0 → Fin S100000x16.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S1600000x128 : Shape := ⟨2, ![1600000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000x128, .f32⟩
  | .hbm, ⟨10, _⟩ => ⟨S1x128, .f32⟩
  | .hbm, ⟨11, _⟩ => ⟨S1600000x128, .f32⟩
  | .hbm, ⟨12, _⟩ => ⟨S1600000x128, .f32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S1600000x16_S16x128_S1600000x128_1_0_0_1_n_n_wf : DotDims.WF S1600000x16 S16x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibScatterAdd.lean ====
/-
  A float scatter-add of ROWS read at one element, over the extended reals.

  The operand is an array [N, C]; the scatter indices are a column [E, 1] of row numbers, one per update row;
  the updates are an array [E, C].  Update row e is added, column by column, to the operand's row whose number
  is the index of e read as a signed integer; an update whose index is negative or at least N is dropped.
  So the result at (r, q) is the operand at (r, q) plus the sum, over the update rows e whose index is r, of
  the update at (e, q).  The same for a vector operand [N] with updates [E].
-/
import Idealize.ShloMosaic.PureOps.Ideal
import Idealize.ShloMosaic.PureOps.Contract
import Idealize.ShloMosaic.Lib.ValueIdx

noncomputable section

open scoped BigOperators

namespace Cert.LibScatterAdd

open Idealize.ShloMosaic Idealize.ShloMosaic.ValueIdx

/-- The update rows that land on row `r`: those whose scatter index, read signed, is `r`. -/
def landing {E w : Nat} (idx : IVec ⟨2, ![E, 1]⟩ w) (r : Nat) : Finset (Fin E) :=
  Finset.univ.filter fun e => (idx (ix2 e (0 : Fin 1))).toInt = (r : ℤ)

/-- Dimension numbers of a row scatter: operand [N, C], indices [E, 1], updates [E, C]; the updates' axis 1 is the
    window axis, the operand's axis 0 is the inserted axis and the one the index addresses. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Dimension numbers of an element scatter into a vector: operand [N], indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Where an update lands, for any dimension numbers -/

/-- An update index `j` lands on the operand index `i` exactly when, on every operand axis, the start read off the
    scatter indices plus `j`'s window coordinate is `i`'s coordinate. (The landing index is defined when these sums are
    inside the operand on every axis, and is then the index whose coordinates they are.) -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · -- If `j` lands on `i`, every sum is inside the operand, in particular nonnegative, and `i`'s coordinate is the sum
    -- taken as a natural number: so the sum is the coordinate.
    intro h a
    split_ifs at h with hin
    have hv : (d.start j idx a + (d.window j a : ℤ)).toNat = (i a).val :=
      congrArg Fin.val (congrFun (Option.some.inj h) a)
    have := (hin a).1
    omega
  · -- Conversely, sums that are coordinates of `i` are inside the operand, so `j` lands, and it lands on `i`.
    intro h
    have hin : ∀ a, 0 ≤ d.start j idx a + (d.window j a : ℤ) ∧
        d.start j idx a + (d.window j a : ℤ) < (s.size a : ℤ) := by
      intro a
      have := h a
      have := (i a).isLt
      omega
    rw [dif_pos hin]
    congr 1
    funext a
    refine Fin.ext ?_
    show (d.start j idx a + (d.window j a : ℤ)).toNat = (i a).val
    have := h a
    omega

/-- The axes a shape keeps are the ones outside the removed list. -/
private theorem mem_kept {s : Shape} (axes : List (Fin s.rank)) (a : Fin s.rank) : a ∈ s.kept axes ↔ a ∉ axes := by
  simp [Shape.kept]

/-! ## The row scatter: start and window coordinate on the operand's two axes -/

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- On the operand's row axis the start is the scatter index of the update's row, read signed. -/
private theorem rows_start_zero : (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    -- coordinate by coordinate: the update's row on axis 0, the one component 0 on the index vector's axis
    funext b; refine Fin.ext ?_
    match b with
    | ⟨0, _⟩ => rfl
    | ⟨1, _⟩ => rfl
  rw [hsi]
  rfl

/-- On the operand's column axis, which the scatter index does not address, the start is 0. -/
private theorem rows_start_one : (rowDims N E C wf).start j idx 1 = 0 := by
  unfold ScatterDims.start
  rw [dif_neg (show (1 : Fin 2) ∉ [(0 : Fin 2)] by decide)]

/-- The row axis is the inserted one: no window coordinate there. -/
private theorem rows_window_zero : (rowDims N E C wf).window j 0 = 0 := by
  unfold ScatterDims.window
  rw [dif_neg (fun h => (mem_kept _ _).1 h (List.mem_singleton.mpr rfl))]

/-- On the column axis the window coordinate is the update's column. -/
private theorem rows_window_one : (rowDims N E C wf).window j 1 = (j 1).val := by
  unfold ScatterDims.window
  rw [dif_pos ((mem_kept _ _).2 (show (1 : Fin 2) ∉ [(0 : Fin 2)] by decide))]
  rfl

/-- So the update `j = (e, c)` lands on `(r, q)` exactly when the scatter index of row `e` is `r` and `c = q`. -/
private theorem rows_lands_iff (r : Fin N) (q : Fin C) :
    (rowDims N E C wf).resultIdx? j idx = some (ix2 r q)
      ↔ (idx (ix2 (j 0) 0)).toInt = (r.val : ℤ) ∧ (j 1).val = q.val := by
  -- On the row axis: index + 0 = r.  On the column axis: 0 + c = q.
  rw [resultIdx?_eq_some_iff, Fin.forall_fin_two, rows_start_zero, rows_start_one, rows_window_zero, rows_window_one]
  show (idx (ix2 (j 0) 0)).toInt + ((0 : ℕ) : ℤ) = (r.val : ℤ) ∧ (0 : ℤ) + ((j 1).val : ℤ) = (q.val : ℤ) ↔ _
  constructor <;> rintro ⟨h0, h1⟩ <;> constructor <;> omega

end Rows

/-- THE ROW SCATTER-ADD READ AT `(r, q)`: the operand there plus the updates `(e, q)` of the rows `e` landing on `r`. -/
theorem scatterAdd_rows_apply {φ : FTy} {N E C w : Nat}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (r : Fin N) (q : Fin C) :
    Host.scatterAdd (rowDims N E C wf) x idx upd (ix2 r q)
      = x (ix2 r q) + ∑ e ∈ landing idx r.val, upd (ix2 e q) := by
  -- By definition the result at `(r, q)` is the operand there plus the sum of the updates that land on `(r, q)`.
  unfold Host.scatterAdd
  rw [Ideal.hostScatterAdd_def]
  unfold Ideal.hostScatterAdd
  congr 1
  symm
  -- The updates landing on `(r, q)` are the `(e, q)` with `e` landing on `r`: the two sums correspond term by term
  -- through `e ↦ (e, q)`, whose inverse takes an update index to its row.
  refine Finset.sum_nbij' (fun e => ix2 e q) (fun j => j 0) ?_ ?_ ?_ ?_ ?_
  · -- if row `e` lands on `r`, the update `(e, q)` lands on `(r, q)`
    intro e he
    exact Finset.mem_filter.2 ⟨Finset.mem_univ _,
      (rows_lands_iff wf idx (ix2 e q) r q).2 ⟨(Finset.mem_filter.1 he).2, rfl⟩⟩
  · -- if the update `j` lands on `(r, q)`, its row lands on `r`
    intro j hj
    exact Finset.mem_filter.2 ⟨Finset.mem_univ _, ((rows_lands_iff wf idx j r q).1 (Finset.mem_filter.1 hj).2).1⟩
  · -- the row of `(e, q)` is `e`
    intro e _
    rfl
  · -- an update landing on `(r, q)` is in column `q`, so it is `(its row, q)`
    intro j hj
    have h1 : j 1 = q := Fin.ext ((rows_lands_iff wf idx j r q).1 (Finset.mem_filter.1 hj).2).2
    show ix2 (j 0) q = j
    rw [← h1]
    exact (eq_ix2 j).symm
  · -- the terms agree
    intro e _
    rfl

/-! ## The vector scatter: start and window coordinate on the operand's one axis -/

section Vector
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- On the operand's one axis the start is the scatter index of the update, read signed. -/
private theorem vec_start_zero : (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    -- coordinate by coordinate: the update's row on axis 0, the one component 0 on the index vector's axis
    funext b; refine Fin.ext ?_
    match b with
    | ⟨0, _⟩ => rfl
    | ⟨1, _⟩ => rfl
  rw [hsi]
  rfl

/-- That axis is the inserted one: the updates have no window axis, and the window coordinate is 0. -/
private theorem vec_window_zero : (vecDims N E wf).window j 0 = 0 := by
  unfold ScatterDims.window
  rw [dif_neg (fun h => (mem_kept _ _).1 h (List.mem_singleton.mpr rfl))]

/-- So the update `j = e` lands on `r` exactly when its scatter index is `r`. -/
private theorem vec_lands_iff (r : Fin N) :
    (vecDims N E wf).resultIdx? j idx = some (ix1 r) ↔ (idx (ix2 (j 0) 0)).toInt = (r.val : ℤ) := by
  -- On the one axis: index + 0 = r.
  rw [resultIdx?_eq_some_iff, Fin.forall_fin_one, vec_start_zero, vec_window_zero]
  show (idx (ix2 (j 0) 0)).toInt + ((0 : ℕ) : ℤ) = (r.val : ℤ) ↔ _
  constructor <;> intro h <;> omega

end Vector

/-- THE VECTOR SCATTER-ADD READ AT `r`: the operand there plus the updates `e` landing on `r`. -/
theorem scatterAdd_vec_apply {φ : FTy} {N E w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (r : Fin N) :
    Host.scatterAdd (vecDims N E wf) x idx upd (ix1 r)
      = x (ix1 r) + ∑ e ∈ landing idx r.val, upd (ix1 e) := by
  -- By definition the result at `r` is the operand there plus the sum of the updates that land on `r`.
  unfold Host.scatterAdd
  rw [Ideal.hostScatterAdd_def]
  unfold Ideal.hostScatterAdd
  congr 1
  symm
  -- An update index is its one coordinate `e`, and it lands on `r` exactly when `e` is in `landing idx r`: the two
  -- sums correspond term by term through `e ↦ (e)`.
  refine Finset.sum_nbij' (fun e => ix1 e) (fun j => j 0) ?_ ?_ ?_ ?_ ?_
  · -- if `e` lands on `r`, so does the update index `(e)`
    intro e he
    exact Finset.mem_filter.2 ⟨Finset.mem_univ _, (vec_lands_iff wf idx (ix1 e) r).2 (Finset.mem_filter.1 he).2⟩
  · -- and conversely
    intro j hj
    exact Finset.mem_filter.2 ⟨Finset.mem_univ _, (vec_lands_iff wf idx j r).1 (Finset.mem_filter.1 hj).2⟩
  · -- the coordinate of `(e)` is `e`
    intro e _
    rfl
  · -- every rank-1 index is `(its coordinate)`
    intro j _
    exact (eq_ix1 j).symm
  · -- the terms agree
    intro e _
    rfl

end Cert.LibScatterAdd

end
-- ==== Proof.Spec.lean ====
/-
  The node update, as plain functions of indices over the extended reals.

  A node's aggregated features (one row of 128 numbers) go through two dense layers with a rectifier between:
  out f = ∑ j, max (∑ i, row i * W1 i j + b1 j) 0 * W2 j f + b2 f.  The aggregate itself is written in the two
  arrangements the two programs use: from three separately summed parts (node features, edge attributes, edge
  count), or from whole edge messages summed edge by edge.
-/
import Idealize.ShloMosaic.PureOps.Ideal
import Idealize.ShloMosaic.Lib.ValueIdx
import proofs.«154193_j30116310679888_2_alg».proof.Proof.LibScatterAdd

noncomputable section

open scoped BigOperators

namespace Cert.NodeSpec

open Idealize.ShloMosaic Idealize.ShloMosaic.ValueIdx Cert.LibScatterAdd

/-- Two dense layers with a rectifier between, on one row of 128 features, read at output feature `f`. -/
def mlp (W1 : Fin 128 → Fin 128 → EReal) (b1 : Fin 128 → EReal) (W2 : Fin 128 → Fin 128 → EReal) (b2 : Fin 128 → EReal)
    (row : Fin 128 → EReal) (f : Fin 128) : EReal :=
  (∑ j : Fin 128, max ((∑ i : Fin 128, row i * W1 i j) + b1 j) 0 * W2 j f) + b2 f

/-- The whole result array: every node's aggregated row through the two layers. -/
def nodeOut (W1 : Fin 128 → Fin 128 → EReal) (b1 : Fin 128 → EReal) (W2 : Fin 128 → Fin 128 → EReal) (b2 : Fin 128 → EReal)
    (agg : Fin 100000 → Fin 128 → EReal) : (⟨2, ![100000, 128]⟩ : Shape).Idx → EReal :=
  fun i => mlp W1 b1 W2 b2 (agg (i 0)) (i 1)

/-- The aggregate from its three parts: the summed node features `aH`, the summed edge attributes `aE` through the
    edge weights `We`, and the edge count `dg` (a column) times the edge bias `be` (a row). -/
def aggParts (aH : (⟨2, ![100000, 128]⟩ : Shape).Idx → EReal) (aE : (⟨2, ![100000, 16]⟩ : Shape).Idx → EReal)
    (dg : (⟨2, ![100000, 1]⟩ : Shape).Idx → EReal) (We : (⟨2, ![16, 128]⟩ : Shape).Idx → EReal)
    (be : (⟨2, ![1, 128]⟩ : Shape).Idx → EReal) (n : Fin 100000) (k : Fin 128) : EReal :=
  (aH (ix2 n k) + ∑ a : Fin 16, aE (ix2 n a) * We (ix2 a k)) + dg (ix2 n (0 : Fin 1)) * be (ix2 (0 : Fin 1) k)

/-- The aggregate from whole edge messages: over the edges `e` whose destination (the column `di` read signed) is node
    `n`, the gathered source feature `g` plus the edge's attributes through the edge weights plus the edge bias. -/
def aggEdges (g : (⟨2, ![1600000, 128]⟩ : Shape).Idx → EReal) (di : IVec ⟨2, ![1600000, 1]⟩ 32)
    (ea : (⟨2, ![1600000, 16]⟩ : Shape).Idx → EReal) (We : (⟨2, ![16, 128]⟩ : Shape).Idx → EReal)
    (be : (⟨1, ![128]⟩ : Shape).Idx → EReal) (n : Fin 100000) (k : Fin 128) : EReal :=
  ∑ e ∈ landing di n.val, (g (ix2 e k) + ((∑ a : Fin 16, ea (ix2 e a) * We (ix2 a k)) + be (ix1 k)))

end Cert.NodeSpec

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The kernel body's arithmetic at one element of its block.

  On a block of 2000 nodes the body forms x = aggH + aggE · We + deg * be (the three aggregated parts recombined), then
  relu (x · W1 + b1) · W2 + b2.  Changes of float format are the identity on extended reals and each matrix
  product into a zero accumulator is a plain sum over its one contracted axis, so at row p and column q the result
  is the two-layer map of row p of x, read at q.
-/
import proofs.«154193_j30116310679888_2_alg».proof.Proof.Gen.KernelIdeal.Skeleton
import proofs.«154193_j30116310679888_2_alg».proof.Proof.Spec
import proofs.«154193_j30116310679888_2_alg».proof.Proof.LibContract
import proofs.«154193_j30116310679888_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.NodeSpec

variable [Cert.KernelIdeal.Facts]

/-- The block's row of recombined aggregates: node features plus edge attributes through the edge weights plus
    edge count times edge bias. -/
def xrow (v0 : Vec Ideal S2000x16 .f32) (v3 : Vec Ideal S16x128 .f32) (v6 : Vec Ideal S2000x128 .f32)
    (v9 : Vec Ideal S2000x1 .f32) (v11 : Vec Ideal S1x128 .f32) (p : Fin 2000) (k : Fin 128) : EReal :=
  (v6 (ix2 p k) + ∑ a : Fin 16, v0 (ix2 p a) * v3 (ix2 a k)) + v9 (ix2 p (0 : Fin 1)) * v11 (ix2 (0 : Fin 1) k)

/-! ### Where the two products read their operands -/

theorem edge_lhs0 (j : S2000x128.Idx) (c : dot_S2000x16_S16x128_S2000x128_1_0_0_1_n_n.contr.Idx) :
    (dot_S2000x16_S16x128_S2000x128_1_0_0_1_n_n.lhsIdx j c 0).val = (j 0).val := by
  unfold DotDims.lhsIdx
  rw [dif_neg (show ¬(0 : Fin S2000x16.rank) ∈ dot_S2000x16_S16x128_S2000x128_1_0_0_1_n_n.lhsBatch by decide),
    dif_pos (show (0 : Fin S2000x16.rank) ∈ dot_S2000x16_S16x128_S2000x128_1_0_0_1_n_n.lhsNonContracting by decide)]
  rfl

theorem edge_rhs1 (j : S2000x128.Idx) (c : dot_S2000x16_S16x128_S2000x128_1_0_0_1_n_n.contr.Idx) :
    (dot_S2000x16_S16x128_S2000x128_1_0_0_1_n_n.rhsIdx j c 1).val = (j 1).val := by
  unfold DotDims.rhsIdx
  rw [dif_neg (show ¬(1 : Fin S16x128.rank) ∈ dot_S2000x16_S16x128_S2000x128_1_0_0_1_n_n.rhsBatch by decide),
    dif_pos (show (1 : Fin S16x128.rank) ∈ dot_S2000x16_S16x128_S2000x128_1_0_0_1_n_n.rhsNonContracting by decide)]
  rfl

theorem layer_lhs0 (j : S2000x128.Idx) (c : dot_S2000x128_S128x128_S2000x128_1_0_0_1_n_n.contr.Idx) :
    (dot_S2000x128_S128x128_S2000x128_1_0_0_1_n_n.lhsIdx j c 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem layer_rhs1 (j : S2000x128.Idx) (c : dot_S2000x128_S128x128_S2000x128_1_0_0_1_n_n.contr.Idx) :
    (dot_S2000x128_S128x128_S2000x128_1_0_0_1_n_n.rhsIdx j c 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The edge-attribute product of the block: 2000 × 16 times 16 × 128 into zero, at `(p, k)`, is the sum over the
    16 attributes. -/
theorem edge_matmul {φ₁ φ₂ : FTy} (A : FVec Ideal S2000x16 φ₁) (W : FVec Ideal S16x128 φ₂) (p : Fin 2000) (k : Fin 128) :
    matmul dot_S2000x16_S16x128_S2000x128_1_0_0_1_n_n none A W (constant S2000x128 .f32 0x00000000#32) (ix2 p k)
      = ∑ a : Fin 16, A (ix2 p a) * W (ix2 a k) := by
  refine Cert.LibContract.matmul_zero_single _ none 16 rfl rfl A W (ix2 p k) (fun a => ix2 p a) (fun a => ix2 a k)
    (fun a => ?_) (fun a => ?_)
  · have ha := contrEquiv1_symm_val dot_S2000x16_S16x128_S2000x128_1_0_0_1_n_n 16 rfl rfl a
    funext ax; refine Fin.ext ?_
    match ax with
    | ⟨0, _⟩ => exact edge_lhs0 _ _
    | ⟨1, _⟩ => exact (dot_S2000x16_S16x128_S2000x128_1_0_0_1_n_n.lhsIdx_val_of_single rfl _ _).trans ha
  · have ha := contrEquiv1_symm_val dot_S2000x16_S16x128_S2000x128_1_0_0_1_n_n 16 rfl rfl a
    funext ax; refine Fin.ext ?_
    match ax with
    | ⟨0, _⟩ => exact (dot_S2000x16_S16x128_S2000x128_1_0_0_1_n_n.rhsIdx_val_of_single rfl _ _).trans ha
    | ⟨1, _⟩ => exact edge_rhs1 _ _

/-- A dense layer's product on the block: 2000 × 128 times 128 × 128 into zero, at `(p, j)`, is the sum over the
    128 input features. -/
theorem layer_matmul {φ₁ φ₂ : FTy} (L : FVec Ideal S2000x128 φ₁) (W : FVec Ideal S128x128 φ₂) (p : Fin 2000) (j : Fin 128) :
    matmul dot_S2000x128_S128x128_S2000x128_1_0_0_1_n_n none L W (constant S2000x128 .f32 0x00000000#32) (ix2 p j)
      = ∑ i : Fin 128, L (ix2 p i) * W (ix2 i j) := by
  refine Cert.LibContract.matmul_zero_single _ none 128 rfl rfl L W (ix2 p j) (fun i => ix2 p i) (fun i => ix2 i j)
    (fun i => ?_) (fun i => ?_)
  · have hi := contrEquiv1_symm_val dot_S2000x128_S128x128_S2000x128_1_0_0_1_n_n 128 rfl rfl i
    funext ax; refine Fin.ext ?_
    match ax with
    | ⟨0, _⟩ => exact layer_lhs0 _ _
    | ⟨1, _⟩ => exact (dot_S2000x128_S128x128_S2000x128_1_0_0_1_n_n.lhsIdx_val_of_single rfl _ _).trans hi
  · have hi := contrEquiv1_symm_val dot_S2000x128_S128x128_S2000x128_1_0_0_1_n_n 128 rfl rfl i
    funext ax; refine Fin.ext ?_
    match ax with
    | ⟨0, _⟩ => exact (dot_S2000x128_S128x128_S2000x128_1_0_0_1_n_n.rhsIdx_val_of_single rfl _ _).trans hi
    | ⟨1, _⟩ => exact layer_rhs1 _ _

/-- A dense layer on the block at `(p, j)`: the product with the weights plus the bias row broadcast down the block. -/
theorem layer_apply {φ₁ : FTy} (L : FVec Ideal S2000x128 φ₁) (W : Vec Ideal S128x128 .f32) (b : Vec Ideal S1x128 .f32)
    (p : Fin 2000) (j : Fin 128) :
    addf (matmul dot_S2000x128_S128x128_S2000x128_1_0_0_1_n_n none L (truncf .bf16 W bitsLt_bf16_f32)
        (constant S2000x128 .f32 0x00000000#32))
      (broadcastTo S2000x128 (shapeCast S1x128 b shapeCasts_S1x128_S1x128) broadcasts_S1x128_S2000x128) (ix2 p j)
      = (∑ i : Fin 128, L (ix2 p i) * W (ix2 i j)) + b (ix2 (0 : Fin 1) j) := by
  rw [addf_apply, layer_matmul, shapeCast_self, broadcastTo_1b_ab_apply]
  rfl

/-- The recombined aggregate of the block at `(p, k)`. -/
theorem x_apply (v0 : Vec Ideal S2000x16 .f32) (v3 : Vec Ideal S16x128 .f32) (v6 : Vec Ideal S2000x128 .f32)
    (v9 : Vec Ideal S2000x1 .f32) (v11 : Vec Ideal S1x128 .f32) (p : Fin 2000) (k : Fin 128) :
    addf (F := Ideal) (addf (shapeCast S2000x128 v6 shapeCasts_S2000x128_S2000x128)
        (matmul dot_S2000x16_S16x128_S2000x128_1_0_0_1_n_n none
          (truncf .bf16 (shapeCast S2000x16 v0 shapeCasts_S2000x16_S2000x16) bitsLt_bf16_f32)
          (truncf .bf16 v3 bitsLt_bf16_f32) (constant S2000x128 .f32 0x00000000#32)))
      (mulf (broadcastTo S2000x128 (shapeCast S2000x1 v9 shapeCasts_S2000x1_S2000x1) broadcasts_S2000x1_S2000x128)
        (broadcastTo S2000x128 (shapeCast S1x128 v11 shapeCasts_S1x128_S1x128) broadcasts_S1x128_S2000x128)) (ix2 p k)
      = xrow v0 v3 v6 v9 v11 p k := by
  rw [addf_apply, addf_apply, mulf_apply, edge_matmul, shapeCast_self, shapeCast_self, shapeCast_self, shapeCast_self,
    Cert.LibColumn.broadcastTo_a1_ab_apply, broadcastTo_1b_ab_apply]
  rfl

/-- THE BODY'S RESULT AT `(p, q)`: the two-layer map of row `p` of the recombined aggregates, read at `q`. -/
theorem pay_apply (v0 : Vec Ideal S2000x16 .f32) (v3 : Vec Ideal S16x128 .f32) (v6 : Vec Ideal S2000x128 .f32)
    (v9 : Vec Ideal S2000x1 .f32) (v11 : Vec Ideal S1x128 .f32) (v18 : Vec Ideal S128x128 .f32) (v21 : Vec Ideal S1x128 .f32)
    (v28 : Vec Ideal S128x128 .f32) (v31 : Vec Ideal S1x128 .f32) (p : Fin 2000) (q : Fin 128) :
    k0_pay1 (F := Ideal) v0 v3 v6 v9 v11 v18 v21 v28 v31 (ix2 p q)
      = mlp (fun i j => v18 (ix2 i j)) (fun j => v21 (ix2 (0 : Fin 1) j)) (fun j f => v28 (ix2 j f))
          (fun f => v31 (ix2 (0 : Fin 1) f)) (xrow v0 v3 v6 v9 v11 p) q := by
  unfold k0_pay1
  rw [layer_apply]
  unfold mlp
  refine congrArg (· + v31 (ix2 (0 : Fin 1) q)) (Finset.sum_congr rfl fun j _ => congrArg (· * v28 (ix2 j q)) ?_)
  rw [truncf_apply, maximumf_apply, layer_apply, broadcast_apply]
  refine congrArg₂ max (congrArg (· + v21 (ix2 (0 : Fin 1) j)) (Finset.sum_congr rfl fun i _ => congrArg (· * v18 (ix2 i j)) ?_)) ?_
  · rw [truncf_apply, x_apply]
  · exact Ideal.ofBits_zero_f32

end Cert.KernelIdeal.Payload

end
-- ==== Proof.KernelValue.lean ====
/-
  What the kernel leaves in its result array, read index by index.

  The grid has 50 points; point t handles the block of nodes 2000 t … 2000 t + 1999.  The three aggregated arrays
  and the result move with the point; the weights and biases are the same whole arrays at every point.  Each point
  writes the two-layer map of its block's recombined aggregates, the blocks tile the 100000 nodes, so the array
  ends as the node update of the recombined aggregates of the arrays the kernel was launched on.
-/
import proofs.«154193_j30116310679888_2_alg».proof.Proof.Gen.KernelIdeal.Value
import proofs.«154193_j30116310679888_2_alg».proof.Proof.KernelPayload
import Idealize.ShloMosaic.Lib.Pipeline.Value

noncomputable section

open scoped BigOperators

namespace Cert.KernelIdeal.BlockValue

open Cert.KernelIdeal Cert.KernelIdeal.Gen Cert.KernelIdeal.Value Cert.KernelIdeal.Payload
open Idealize.ShloMosaic Idealize.ShloMosaic.TcCoe Idealize.SL.Sem Idealize.ShloMosaic.ValueIdx Cert.NodeSpec
open Idealize.ShloMosaic.Pipeline (Dat)

variable (m : (ℓ : Loc nD τ sig) → Buf (Elt Ideal) ℓ) (ρ : Dev nD → PrngReg)

/-- The result array as one function of the arrays the kernel is launched on: the node update of the recombined
    aggregates. -/
def result (c : Dev nD) : S100000x128.Idx → EReal :=
  nodeOut (fun i j => (V m c main_arg5 : S128x128.Idx → EReal) (ix2 i j))
    (fun j => (V m c main_v23 : S1x128.Idx → EReal) (ix2 (0 : Fin 1) j))
    (fun j f => (V m c main_arg7 : S128x128.Idx → EReal) (ix2 j f))
    (fun f => (V m c main_v24 : S1x128.Idx → EReal) (ix2 (0 : Fin 1) f))
    (aggParts (V m c main_v13) (V m c main_v16) (V m c main_v21) (V m c main_arg3) (V m c main_v22))

/-- One point's work over variables: if the three moving blocks are row `n` of their arrays at block row `p`, and the
    other six blocks are their whole arrays, the body's result at `(p, q)` is the node update at `(n, q)`. -/
theorem point_value (x0 : Vec Ideal S2000x128 .f32) (x1 : Vec Ideal S2000x16 .f32) (x2 : Vec Ideal S2000x1 .f32)
    (x3 : Vec Ideal S16x128 .f32) (x4 : Vec Ideal S1x128 .f32) (x5 : Vec Ideal S128x128 .f32) (x6 : Vec Ideal S1x128 .f32)
    (x7 : Vec Ideal S128x128 .f32) (x8 : Vec Ideal S1x128 .f32)
    (aH : S100000x128.Idx → EReal) (aE : S100000x16.Idx → EReal) (dg : S100000x1.Idx → EReal)
    (We : S16x128.Idx → EReal) (be2 : S1x128.Idx → EReal) (W1 : S128x128.Idx → EReal) (b1 : S1x128.Idx → EReal)
    (W2 : S128x128.Idx → EReal) (b2 : S1x128.Idx → EReal)
    (p : Fin 2000) (q : Fin 128) (n : Fin 100000)
    (h0 : ∀ k : Fin 128, x0 (ix2 p k) = aH (ix2 n k))
    (h1 : ∀ a : Fin 16, x1 (ix2 p a) = aE (ix2 n a))
    (h2 : x2 (ix2 p (0 : Fin 1)) = dg (ix2 n (0 : Fin 1)))
    (h3 : x3 = We) (h4 : x4 = be2) (h5 : x5 = W1) (h6 : x6 = b1) (h7 : x7 = W2) (h8 : x8 = b2) :
    k0_pay1 (F := Ideal) x1 x3 x0 x2 x4 x5 x6 x7 x8 (ix2 p q)
      = nodeOut (fun i j => W1 (ix2 i j)) (fun j => b1 (ix2 (0 : Fin 1) j)) (fun j f => W2 (ix2 j f))
          (fun f => b2 (ix2 (0 : Fin 1) f)) (aggParts aH aE dg We be2) (ix2 n q) := by
  subst h3 h4 h5 h6 h7 h8
  rw [pay_apply]
  show mlp _ _ _ _ _ q = mlp _ _ _ _ (aggParts aH aE dg x3 x4 n) q
  refine congrArg (fun row => mlp _ _ _ _ row q) (funext fun k => ?_)
  unfold xrow aggParts
  rw [h0 k, h2]
  exact congrArg (fun s => (aH (ix2 n k) + s) + dg (ix2 n (0 : Fin 1)) * x4 (ix2 (0 : Fin 1) k))
    (Finset.sum_congr rfl fun a _ => by rw [h1 a])

theorem hz : (![0, 0] : Fin 2 → Nat) = fun _ => 0 := funext fun a => by fin_cases a <;> rfl

/-- The printed index maps over the 50 points: the moving windows sit at block `(t, 0)`, the others at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ### Each window's block at a point, read off an array (any array: the contents play no part) -/

/-- Row `p` of window 0's block at point `t` is row `2000 t + p` of the array. -/
theorem rows0 (A : S100000x128.Idx → EReal) (t : Fin cfg0.N) (p : Fin 2000) (hn : t.val * 2000 + p.val < 100000) (k : Fin 128) :
    ((cfg0.win 0).blk t).view.read (Elt Ideal) A (ix2 p k) = A (ix2 ⟨t.val * 2000 + p.val, hn⟩ k) := by
  obtain ⟨e00, e01, e10, e11, e20, e21, e90, e91⟩ := idx_facts t
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row `p` of window 1's block at point `t` is row `2000 t + p` of the array. -/
theorem rows1 (A : S100000x16.Idx → EReal) (t : Fin cfg0.N) (p : Fin 2000) (hn : t.val * 2000 + p.val < 100000) (a : Fin 16) :
    ((cfg0.win 1).blk t).view.read (Elt Ideal) A (ix2 p a) = A (ix2 ⟨t.val * 2000 + p.val, hn⟩ a) := by
  obtain ⟨e00, e01, e10, e11, e20, e21, e90, e91⟩ := idx_facts t
  show A (((cfg0.win 1).blk t).view.emb (ix2 p a)) = _
  refine congrArg A (funext fun ax => Fin.ext ?_)
  match ax with
  | ⟨0, _⟩ => show win0_1.index t (0 : Fin 2) * 2000 + 1 * p.val = t.val * 2000 + p.val; omega
  | ⟨1, _⟩ => show win0_1.index t (1 : Fin 2) * 16 + 1 * a.val = a.val; omega

/-- Entry `p` of window 2's block at point `t` is entry `2000 t + p` of the column. -/
theorem rows2 (A : S100000x1.Idx → EReal) (t : Fin cfg0.N) (p : Fin 2000) (hn : t.val * 2000 + p.val < 100000) :
    ((cfg0.win 2).blk t).view.read (Elt Ideal) A (ix2 p (0 : Fin 1)) = A (ix2 ⟨t.val * 2000 + p.val, hn⟩ (0 : Fin 1)) := by
  obtain ⟨e00, e01, e10, e11, e20, e21, e90, e91⟩ := idx_facts t
  show A (((cfg0.win 2).blk t).view.emb (ix2 p (0 : Fin 1))) = _
  refine congrArg A (funext fun ax => Fin.ext ?_)
  match ax with
  | ⟨0, _⟩ => show win0_2.index t (0 : Fin 2) * 2000 + 1 * p.val = t.val * 2000 + p.val; omega
  | ⟨1, _⟩ => show win0_2.index t (1 : Fin 2) * 1 + 1 * 0 = 0; omega

/-- The edge weights' block is the whole array at every point. -/
theorem whole3 (A : S16x128.Idx → EReal) (t : Fin cfg0.N) :
    (((cfg0.win 3).blk t).view.read (Elt Ideal) A : S16x128.Idx → EReal) = A := funext fun y => by
  obtain ⟨f30, f31, f40, f41, f50, f51, f60, f61, f70, f71, f80, f81⟩ := idx_fixed t
  show A (((cfg0.win 3).blk t).view.emb y) = A y
  refine congrArg A (funext fun ax => Fin.ext ?_)
  match ax with
  | ⟨0, _⟩ => show win0_3.index t (0 : Fin 2) * 16 + 1 * (y 0).val = (y 0).val; omega
  | ⟨1, _⟩ => show win0_3.index t (1 : Fin 2) * 128 + 1 * (y 1).val = (y 1).val; omega

/-- The edge bias row's block is the whole row at every point. -/
theorem whole4 (A : S1x128.Idx → EReal) (t : Fin cfg0.N) :
    (((cfg0.win 4).blk t).view.read (Elt Ideal) A : S1x128.Idx → EReal) = A := funext fun y => by
  obtain ⟨f30, f31, f40, f41, f50, f51, f60, f61, f70, f71, f80, f81⟩ := idx_fixed t
  show A (((cfg0.win 4).blk t).view.emb y) = A y
  refine congrArg A (funext fun ax => Fin.ext ?_)
  match ax with
  | ⟨0, _⟩ => show win0_4.index t (0 : Fin 2) * 1 + 1 * (y 0).val = (y 0).val; omega
  | ⟨1, _⟩ => show win0_4.index t (1 : Fin 2) * 128 + 1 * (y 1).val = (y 1).val; omega

/-- The first layer's weights: the whole array at every point. -/
theorem whole5 (A : S128x128.Idx → EReal) (t : Fin cfg0.N) :
    (((cfg0.win 5).blk t).view.read (Elt Ideal) A : S128x128.Idx → EReal) = A := funext fun y => by
  obtain ⟨f30, f31, f40, f41, f50, f51, f60, f61, f70, f71, f80, f81⟩ := idx_fixed t
  show A (((cfg0.win 5).blk t).view.emb y) = A y
  refine congrArg A (funext fun ax => Fin.ext ?_)
  match ax with
  | ⟨0, _⟩ => show win0_5.index t (0 : Fin 2) * 128 + 1 * (y 0).val = (y 0).val; omega
  | ⟨1, _⟩ => show win0_5.index t (1 : Fin 2) * 128 + 1 * (y 1).val = (y 1).val; omega

/-- The first layer's bias row: the whole row at every point. -/
theorem whole6 (A : S1x128.Idx → EReal) (t : Fin cfg0.N) :
    (((cfg0.win 6).blk t).view.read (Elt Ideal) A : S1x128.Idx → EReal) = A := funext fun y => by
  obtain ⟨f30, f31, f40, f41, f50, f51, f60, f61, f70, f71, f80, f81⟩ := idx_fixed t
  show A (((cfg0.win 6).blk t).view.emb y) = A y
  refine congrArg A (funext fun ax => Fin.ext ?_)
  match ax with
  | ⟨0, _⟩ => show win0_6.index t (0 : Fin 2) * 1 + 1 * (y 0).val = (y 0).val; omega
  | ⟨1, _⟩ => show win0_6.index t (1 : Fin 2) * 128 + 1 * (y 1).val = (y 1).val; omega

/-- The second layer's weights: the whole array at every point. -/
theorem whole7 (A : S128x128.Idx → EReal) (t : Fin cfg0.N) :
    (((cfg0.win 7).blk t).view.read (Elt Ideal) A : S128x128.Idx → EReal) = A := funext fun y => by
  obtain ⟨f30, f31, f40, f41, f50, f51, f60, f61, f70, f71, f80, f81⟩ := idx_fixed t
  show A (((cfg0.win 7).blk t).view.emb y) = A y
  refine congrArg A (funext fun ax => Fin.ext ?_)
  match ax with
  | ⟨0, _⟩ => show win0_7.index t (0 : Fin 2) * 128 + 1 * (y 0).val = (y 0).val; omega
  | ⟨1, _⟩ => show win0_7.index t (1 : Fin 2) * 128 + 1 * (y 1).val = (y 1).val; omega

/-- The second layer's bias row: the whole row at every point. -/
theorem whole8 (A : S1x128.Idx → EReal) (t : Fin cfg0.N) :
    (((cfg0.win 8).blk t).view.read (Elt Ideal) A : S1x128.Idx → EReal) = A := funext fun y => by
  obtain ⟨f30, f31, f40, f41, f50, f51, f60, f61, f70, f71, f80, f81⟩ := idx_fixed t
  show A (((cfg0.win 8).blk t).view.emb y) = A y
  refine congrArg A (funext fun ax => Fin.ext ?_)
  match ax with
  | ⟨0, _⟩ => show win0_8.index t (0 : Fin 2) * 1 + 1 * (y 0).val = (y 0).val; omega
  | ⟨1, _⟩ => show win0_8.index t (1 : Fin 2) * 128 + 1 * (y 1).val = (y 1).val; omega

/-- Where the result block of point `t` sits: its `(p, q)` is `(2000 t + p, q)` of the result array. -/
theorem emb9 (t : Fin cfg0.N) (p : Fin 2000) (q : Fin 128) (hn : t.val * 2000 + p.val < 100000) :
    ((cfg0.win 9).blk t).view.emb (ix2 p q) = ix2 (⟨t.val * 2000 + p.val, hn⟩ : Fin 100000) q := by
  obtain ⟨e00, e01, e10, e11, e20, e21, e90, e91⟩ := idx_facts t
  funext a; apply Fin.ext
  match a with
  | ⟨0, _⟩ => show win0_9.index t (0 : Fin 2) * 2000 + 1 * p.val = t.val * 2000 + p.val; omega
  | ⟨1, _⟩ => show win0_9.index t (1 : Fin 2) * 128 + 1 * q.val = q.val; omega

/-- One point over ANY nine arrays: the body's result on the point's blocks is the point's block of the node update of
    the recombined aggregates of the arrays. -/
theorem point_block (A0 : S100000x128.Idx → EReal) (A1 : S100000x16.Idx → EReal) (A2 : S100000x1.Idx → EReal)
    (A3 : S16x128.Idx → EReal) (A4 : S1x128.Idx → EReal) (A5 : S128x128.Idx → EReal) (A6 : S1x128.Idx → EReal)
    (A7 : S128x128.Idx → EReal) (A8 : S1x128.Idx → EReal) (t : Fin cfg0.N) :
    k0_pay1 (F := Ideal) (((cfg0.win 1).blk t).view.read (Elt Ideal) A1) (((cfg0.win 3).blk t).view.read (Elt Ideal) A3)
        (((cfg0.win 0).blk t).view.read (Elt Ideal) A0) (((cfg0.win 2).blk t).view.read (Elt Ideal) A2)
        (((cfg0.win 4).blk t).view.read (Elt Ideal) A4) (((cfg0.win 5).blk t).view.read (Elt Ideal) A5)
        (((cfg0.win 6).blk t).view.read (Elt Ideal) A6) (((cfg0.win 7).blk t).view.read (Elt Ideal) A7)
        (((cfg0.win 8).blk t).view.read (Elt Ideal) A8)
      = ((cfg0.win 9).blk t).view.read (Elt Ideal)
          (nodeOut (fun i j => A5 (ix2 i j)) (fun j => A6 (ix2 (0 : Fin 1) j)) (fun j f => A7 (ix2 j f))
            (fun f => A8 (ix2 (0 : Fin 1) f)) (aggParts A0 A1 A2 A3 A4)) := by
  funext y
  obtain ⟨p, q, rfl⟩ : ∃ (p : Fin 2000) (q : Fin 128), y = ix2 p q := ⟨y 0, y 1, eq_ix2 y⟩
  have ht : t.val < 50 := lt_of_lt_of_eq t.isLt N_0
  have hp : p.val < 2000 := p.isLt
  have hn : t.val * 2000 + p.val < 100000 := by omega
  show _ = nodeOut (fun i j => A5 (ix2 i j)) (fun j => A6 (ix2 (0 : Fin 1) j)) (fun j f => A7 (ix2 j f))
      (fun f => A8 (ix2 (0 : Fin 1) f)) (aggParts A0 A1 A2 A3 A4) (((cfg0.win 9).blk t).view.emb (ix2 p q))
  rw [emb9 t p q hn]
  exact point_value _ _ _ _ _ _ _ _ _ A0 A1 A2 A3 A4 A5 A6 A7 A8 p q ⟨t.val * 2000 + p.val, hn⟩
    (rows0 A0 t p hn) (rows1 A1 t p hn) (rows2 A2 t p hn) (whole3 A3 t) (whole4 A4 t) (whole5 A5 t) (whole6 A6 t)
    (whole7 A7 t) (whole8 A8 t)

/-! Each input window's block at a point is its array (as the region finds it) read through the point's block. -/

theorem iblk0 (c : Dev nD) (t : Fin cfg0.N) :
    iblk m c 0 t = ((cfg0.win 0).blk t).view.read (Elt Ideal) (V m c main_v13) := rfl
theorem iblk1 (c : Dev nD) (t : Fin cfg0.N) :
    iblk m c 1 t = ((cfg0.win 1).blk t).view.read (Elt Ideal) (V m c main_v16) := rfl
theorem iblk2 (c : Dev nD) (t : Fin cfg0.N) :
    iblk m c 2 t = ((cfg0.win 2).blk t).view.read (Elt Ideal) (V m c main_v21) := rfl
theorem iblk3 (c : Dev nD) (t : Fin cfg0.N) :
    iblk m c 3 t = ((cfg0.win 3).blk t).view.read (Elt Ideal) (V m c main_arg3) := rfl
theorem iblk4 (c : Dev nD) (t : Fin cfg0.N) :
    iblk m c 4 t = ((cfg0.win 4).blk t).view.read (Elt Ideal) (V m c main_v22) := rfl
theorem iblk5 (c : Dev nD) (t : Fin cfg0.N) :
    iblk m c 5 t = ((cfg0.win 5).blk t).view.read (Elt Ideal) (V m c main_arg5) := rfl
theorem iblk6 (c : Dev nD) (t : Fin cfg0.N) :
    iblk m c 6 t = ((cfg0.win 6).blk t).view.read (Elt Ideal) (V m c main_v23) := rfl
theorem iblk7 (c : Dev nD) (t : Fin cfg0.N) :
    iblk m c 7 t = ((cfg0.win 7).blk t).view.read (Elt Ideal) (V m c main_arg7) := rfl
theorem iblk8 (c : Dev nD) (t : Fin cfg0.N) :
    iblk m c 8 t = ((cfg0.win 8).blk t).view.read (Elt Ideal) (V m c main_v24) := rfl

/-- The result window is never clipped: what a point writes back is its whole staging buffer. -/
theorem cut9 (t : Fin cfg0.N) (X : Vec Ideal S2000x128 .f32) : (win0 9).cut (grid0.coords t) X = X := rfl

/-- WHAT POINT `t` WRITES BACK is block `t` of the node update of the recombined aggregates. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz]
  simp only [View.ld_unit_zero (S := S2000x128) hz, View.ld_unit_zero (S := S2000x16) hz, View.ld_unit_zero (S := S2000x1) hz,
    View.ld_unit_zero (S := S16x128) hz, View.ld_unit_zero (S := S1x128) hz, View.ld_unit_zero (S := S128x128) hz]
  rw [cut9, iblk0, iblk1, iblk2, iblk3, iblk4, iblk5, iblk6, iblk7, iblk8]
  unfold result
  exact point_block (V m c main_v13) (V m c main_v16) (V m c main_v21) (V m c main_arg3) (V m c main_v22)
    (V m c main_arg5) (V m c main_v23) (V m c main_arg7) (V m c main_v24) t

/-- An index of the result array is in point `t`'s block iff each coordinate is in the block's range on its axis. -/
theorem mem_blk (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v25).slice (win0_9.rect t)).set ↔ _
  rw [View.set_slice_whole, Rect.mem_set_unit]
  exact Iff.rfl

/-- The 50 blocks of 2000 rows tile the 100000 nodes: node `r` is in the block of point `r / 2000`. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hlt : (i 0).val / 2000 < cfg0.N := by show _ < grid0.N; rw [N_0]; omega
  obtain ⟨e00, e01, e10, e11, e20, e21, e90, e91⟩ := idx_facts ⟨(i 0).val / 2000, hlt⟩
  have q0 : win0_9.index ⟨(i 0).val / 2000, hlt⟩ (0 : Fin 2) = (i 0).val / 2000 := e90
  refine ⟨⟨(i 0).val / 2000, hlt⟩, flush0_9 _, ?_⟩
  rw [mem_blk]
  intro a
  match a with
  | ⟨0, _⟩ =>
    show win0_9.index ⟨(i 0).val / 2000, hlt⟩ (0 : Fin 2) * 2000 ≤ (i 0).val
      ∧ (i 0).val < win0_9.index ⟨(i 0).val / 2000, hlt⟩ (0 : Fin 2) * 2000 + 2000
    omega
  | ⟨1, _⟩ =>
    show win0_9.index ⟨(i 0).val / 2000, hlt⟩ (1 : Fin 2) * 128 ≤ (i 1).val
      ∧ (i 1).val < win0_9.index ⟨(i 0).val / 2000, hlt⟩ (1 : Fin 2) * 128 + 128
    omega

/-- THE RESULT ARRAY after the run is the node update of the recombined aggregates. -/
theorem final (c : Dev nD) : (dats m 0 c).arrAt 9 cfg0.N = result m c :=
  (dats m 0 c).arrAt_eq_of_cover 9 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.KernelIdeal.BlockValue

end
-- ==== Proof.KernelHost.lean ====
/-
  The arrays the kernel is launched on, as functions of the program's arguments.

  Before the kernel runs, the program gathers the source node's features for every edge, and adds up per destination
  node (a scatter-add into zeros) the gathered features, the edge attributes, and a one per edge; the three biases
  are reshaped to rows.  Read at an index: each aggregated array is zero plus the sum over the edges landing on the
  node, and each bias row is the bias vector.
-/
import proofs.«154193_j30116310679888_2_alg».proof.Proof.Gen.KernelIdeal.Frame
import proofs.«154193_j30116310679888_2_alg».proof.Proof.LibScatterAdd
import proofs.«154193_j30116310679888_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.LibScatterAdd

/-- The destination column: row 1 of the edge index, as a column of scatter indices. -/
def dstCol (x1 : IVec S2x1600000 32) : IVec S1600000x1 32 :=
  broadcastInDim S1600000x1 ![0] bcast_S1600000_S1600000x1_0
    (shapeCast S1600000 (extractStridedSlice S1x1600000 ![1, 0] x1 slices_S2x1600000_S1x1600000_1_0) shapeCasts_S1x1600000_S1600000)

/-- Row 0 of the edge index: the source node of every edge. -/
def srcRow (x1 : IVec S2x1600000 32) : IVec S1600000 32 :=
  shapeCast S1600000 (extractStridedSlice S1x1600000 ![0, 0] x1 slices_S2x1600000_S1x1600000_0_0) shapeCasts_S1x1600000_S1600000

/-- The source column: a negative source counts from the end (100000 is added), then a column of start indices. -/
def srcCol (x1 : IVec S2x1600000 32) : IVec S1600000x1 32 :=
  broadcastInDim S1600000x1 ![0] bcast_S1600000_S1600000x1_0
    (select (cmpi .slt (srcRow x1) (broadcastInDim S1600000 ![] bcast_S_S1600000 (constantI S_ 32 0#32)))
      (addi (srcRow x1) (broadcastInDim S1600000 ![] bcast_S_S1600000 (constantI S_ 32 100000#32))) (srcRow x1))

/-- The gathered source features, one row per edge. -/
def gathered (x0 : FVec Ideal S100000x128 .f32) (x1 : IVec S2x1600000 32) : FVec Ideal S1600000x128 .f32 :=
  Host.gather gather_S100000x128_S1600000x1_S1600000x128_1_0_n_n_0_1_1128 x0 (srcCol x1)

variable (m : (ℓ : Loc nD τ sig) → Buf (Elt Ideal) ℓ) (c : Dev nD)

/-- The program's arguments on core `c`, typed as arrays. -/
abbrev a0 : FVec Ideal S100000x128 .f32 := m ((c : Thread nD τ).loc main_arg0)
abbrev a1 : IVec S2x1600000 32 := m ((c : Thread nD τ).loc main_arg1)
abbrev a2 : FVec Ideal S1600000x16 .f32 := m ((c : Thread nD τ).loc main_arg2)
abbrev a4 : FVec Ideal S128 .f32 := m ((c : Thread nD τ).loc main_arg4)
abbrev a6 : FVec Ideal S128 .f32 := m ((c : Thread nD τ).loc main_arg6)
abbrev a8 : FVec Ideal S128 .f32 := m ((c : Thread nD τ).loc main_arg8)

/-! ## The arrays as the program's operations leave them

Each array the kernel is launched on is, on every core, the value of the chain of operations that writes it, applied
to the program's arguments. -/

/-- The summed-features array: the gathered rows scatter-added into the zero array along the destination column. -/
private theorem aggH_eq :
    (V m c main_v13 : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (dstCol (a1 m c)) (gathered (a0 m c) (a1 m c)) := by
  dsimp only [Gen.V, Gen.hostOps0]
  after_results
  rfl

/-- The summed-attributes array: the edge attributes scatter-added into the zero array along the destination column. -/
private theorem aggE_eq :
    (V m c main_v16 : S100000x16.Idx → EReal)
      = Host.scatterAdd (F := Ideal) scatter_S100000x16_S1600000x1_S1600000x16_1_0_0_1
          (broadcastInDim S100000x16 ![] bcast_S_S100000x16 (constant (F := Ideal) S_ .f32 0x00000000#32))
          (dstCol (a1 m c)) (a2 m c) := by
  dsimp only [Gen.V, Gen.hostOps0]
  after_results
  rfl

/-- The edge-count column: a one per edge scatter-added into the zero vector along the destination column, then the
    vector reshaped to a column. -/
private theorem deg_eq :
    (V m c main_v21 : S100000x1.Idx → EReal)
      = shapeCast S100000x1
          (Host.scatterAdd (F := Ideal) scatter_S100000_S1600000x1_S1600000_n_0_0_1
            (broadcastInDim S100000 ![] bcast_S_S100000 (constant (F := Ideal) S_ .f32 0x00000000#32))
            (dstCol (a1 m c))
            (broadcastInDim S1600000 ![] bcast_S_S1600000 (constant (F := Ideal) S_ .f32 0x3F800000#32)))
          shapeCasts_S100000_S100000x1 := by
  dsimp only [Gen.V, Gen.hostOps0]
  after_results
  rfl

/-- The edge bias row: the bias vector reshaped to a row. -/
private theorem be_eq : (V m c main_v22 : S1x128.Idx → EReal) = shapeCast S1x128 (a4 m c) shapeCasts_S128_S1x128 := by
  dsimp only [Gen.V, Gen.hostOps0]
  after_results
  rfl

/-- The first layer's bias row: the bias vector reshaped to a row. -/
private theorem b1_eq : (V m c main_v23 : S1x128.Idx → EReal) = shapeCast S1x128 (a6 m c) shapeCasts_S128_S1x128 := by
  dsimp only [Gen.V, Gen.hostOps0]
  after_results
  rfl

/-- The second layer's bias row: the bias vector reshaped to a row. -/
private theorem b2_eq : (V m c main_v24 : S1x128.Idx → EReal) = shapeCast S1x128 (a8 m c) shapeCasts_S128_S1x128 := by
  dsimp only [Gen.V, Gen.hostOps0]
  after_results
  rfl

/-! ## Read at an index -/

/-- The summed node features at `(n, k)`: zero plus the gathered features of the edges landing on `n`. -/
theorem aggH_apply (n : Fin 100000) (k : Fin 128) :
    (V m c main_v13 : S100000x128.Idx → EReal) (ix2 n k)
      = 0 + ∑ e ∈ landing (dstCol (a1 m c)) n.val, gathered (a0 m c) (a1 m c) (ix2 e k) := by
  refine (congrFun (aggH_eq m c) (ix2 n k)).trans ?_
  -- a row scatter-add read at `(n, k)`: the operand there plus the updates `(e, k)` of the rows `e` landing on `n`
  refine (scatterAdd_rows_apply scatter_S100000x128_S1600000x1_S1600000x128_1_0_0_1.wf _ _ _ n k).trans ?_
  -- the operand is the zero array
  rw [broadcastInDim_scalar_apply, constant_apply, Ideal.ofBits_zero_f32]

/-- The summed edge attributes at `(n, a)`. -/
theorem aggE_apply (n : Fin 100000) (a : Fin 16) :
    (V m c main_v16 : S100000x16.Idx → EReal) (ix2 n a)
      = 0 + ∑ e ∈ landing (dstCol (a1 m c)) n.val, a2 m c (ix2 e a) := by
  refine (congrFun (aggE_eq m c) (ix2 n a)).trans ?_
  -- a row scatter-add read at `(n, a)`: the operand there plus the updates `(e, a)` of the rows `e` landing on `n`
  refine (scatterAdd_rows_apply scatter_S100000x16_S1600000x1_S1600000x16_1_0_0_1.wf _ _ _ n a).trans ?_
  -- the operand is the zero array
  rw [broadcastInDim_scalar_apply, constant_apply, Ideal.ofBits_zero_f32]

/-- The edge count of node `n`, as the column the kernel reads. -/
theorem deg_apply (n : Fin 100000) :
    (V m c main_v21 : S100000x1.Idx → EReal) (ix2 n (0 : Fin 1))
      = 0 + ∑ _e ∈ landing (dstCol (a1 m c)) n.val, (1 : EReal) := by
  refine (congrFun (deg_eq m c) (ix2 n (0 : Fin 1))).trans ?_
  -- the column at `(n, 0)` is the vector at `n`
  refine (Cert.LibColumn.shapeCast_a_a1_apply _ shapeCasts_S100000_S100000x1 n (0 : Fin 1)).trans ?_
  -- a scatter-add into a vector read at `n`: the operand there plus the updates `e` landing on `n`
  refine (scatterAdd_vec_apply scatter_S100000_S1600000x1_S1600000_n_0_0_1.wf _ _ _ n).trans ?_
  -- the operand is the zero vector, and every update is the number one
  rw [broadcastInDim_scalar_apply, constant_apply, Ideal.ofBits_zero_f32]
  refine congrArg (fun t => (0 : EReal) + t) (Finset.sum_congr rfl fun e _ => ?_)
  rw [broadcastInDim_scalar_apply, constant_apply, Ideal.ofBits_one_f32]

/-- The edge bias as a row. -/
theorem be_row (k : Fin 128) : (V m c main_v22 : S1x128.Idx → EReal) (ix2 (0 : Fin 1) k) = a4 m c (ix1 k) := by
  refine (congrFun (be_eq m c) (ix2 (0 : Fin 1) k)).trans ?_
  exact shapeCast_a_1a_apply _ shapeCasts_S128_S1x128 (0 : Fin 1) k

/-- The first layer's bias as a row. -/
theorem b1_row (k : Fin 128) : (V m c main_v23 : S1x128.Idx → EReal) (ix2 (0 : Fin 1) k) = a6 m c (ix1 k) := by
  refine (congrFun (b1_eq m c) (ix2 (0 : Fin 1) k)).trans ?_
  exact shapeCast_a_1a_apply _ shapeCasts_S128_S1x128 (0 : Fin 1) k

/-- The second layer's bias as a row. -/
theorem b2_row (k : Fin 128) : (V m c main_v24 : S1x128.Idx → EReal) (ix2 (0 : Fin 1) k) = a8 m c (ix1 k) := by
  refine (congrFun (b2_eq m c) (ix2 (0 : Fin 1) k)).trans ?_
  exact shapeCast_a_1a_apply _ shapeCasts_S128_S1x128 (0 : Fin 1) k

end Cert.KernelIdeal.HostSide

end
-- ==== Proof.EdgeSum.lean ====
/-
  Aggregating messages edge by edge, or aggregating their three parts first: one sum.

  Over a finite set S of edges, each edge e carries a message  g e + (∑ k, a e k * w k + b):  an arbitrary
  extended real g e (a gathered node feature), a linear map of its real attributes a e k with real weights w k,
  and a real bias b.  Summing the messages over S gives the sum of the g e, plus the weights applied to the
  SUMMED attributes, plus the bias times the number of edges.  Splitting the sum of g + (…) needs only that
  addition of extended reals is commutative and associative; moving the weights out of the sum and counting the
  bias need the attributes, the weights and the bias to be real numbers (distributivity fails at ±∞).
-/
import Mathlib.Data.EReal.Basic
import Mathlib.Algebra.BigOperators.Group.Finset.Sigma
import Mathlib.Algebra.BigOperators.Ring.Finset

open scoped BigOperators

namespace Cert.EdgeSum

/-- A finite sum of real numbers, coerced term by term, is the coercion of the sum. -/
theorem coe_sum {ι : Type*} (S : Finset ι) (f : ι → ℝ) : (∑ e ∈ S, (f e : EReal)) = ((∑ e ∈ S, f e : ℝ) : EReal) := by
  classical
  -- Induction on the set of indices: the empty sum is 0 on both sides, and adding one more index
  -- adds one more real term, which the coercion carries through (it is additive on ℝ).
  induction S using Finset.induction_on with
  | empty => simp
  | insert i s hi ih => rw [Finset.sum_insert hi, Finset.sum_insert hi, EReal.coe_add, ih]

/-- A real factor c comes out of a finite sum of real terms, also when the sum is taken in the extended
reals: all the terms are real, so the computation happens in ℝ, where multiplication distributes. -/
private theorem sum_coe_mul_coe {ι : Type*} (S : Finset ι) (f : ι → ℝ) (c : ℝ) :
    ∑ e ∈ S, (f e : EReal) * (c : EReal) = (∑ e ∈ S, (f e : EReal)) * (c : EReal) :=
  calc ∑ e ∈ S, (f e : EReal) * (c : EReal)
      = ∑ e ∈ S, ((f e * c : ℝ) : EReal) := Finset.sum_congr rfl fun e _ => (EReal.coe_mul (f e) c).symm
    _ = ((∑ e ∈ S, f e * c : ℝ) : EReal) := coe_sum S fun e => f e * c
    _ = (((∑ e ∈ S, f e) * c : ℝ) : EReal) := by rw [Finset.sum_mul]
    _ = ((∑ e ∈ S, f e : ℝ) : EReal) * (c : EReal) := EReal.coe_mul _ c
    _ = (∑ e ∈ S, (f e : EReal)) * (c : EReal) := by rw [coe_sum]

/-- THE LAW: the messages summed edge by edge are the three parts summed separately and recombined. -/
theorem sum_messages {ι κ : Type*} [Fintype κ] (S : Finset ι) (g : ι → EReal) (a : ι → κ → ℝ) (w : κ → ℝ) (b : ℝ) :
    ∑ e ∈ S, (g e + (∑ k, (a e k : EReal) * (w k : EReal) + (b : EReal)))
      = (∑ e ∈ S, g e + ∑ k, (∑ e ∈ S, (a e k : EReal)) * (w k : EReal)) + (∑ _e ∈ S, (1 : EReal)) * (b : EReal) := by
  -- (1) The linear parts: exchange the two finite sums, then take each weight w k out of the sum over edges.
  have linear : ∑ e ∈ S, ∑ k, (a e k : EReal) * (w k : EReal)
      = ∑ k, (∑ e ∈ S, (a e k : EReal)) * (w k : EReal) :=
    calc ∑ e ∈ S, ∑ k, (a e k : EReal) * (w k : EReal)
        = ∑ k, ∑ e ∈ S, (a e k : EReal) * (w k : EReal) := Finset.sum_comm
      _ = ∑ k, (∑ e ∈ S, (a e k : EReal)) * (w k : EReal) :=
          Finset.sum_congr rfl fun k _ => sum_coe_mul_coe S (fun e => a e k) (w k)
  -- (2) The bias: each edge contributes b = 1 * b, and the real factor b comes out of the sum of ones.
  have bias : ∑ _e ∈ S, (b : EReal) = (∑ _e ∈ S, (1 : EReal)) * (b : EReal) :=
    calc ∑ _e ∈ S, (b : EReal)
        = ∑ _e ∈ S, ((1 : ℝ) : EReal) * (b : EReal) := Finset.sum_congr rfl fun _ _ => by rw [EReal.coe_one, one_mul]
      _ = (∑ _e ∈ S, ((1 : ℝ) : EReal)) * (b : EReal) := sum_coe_mul_coe S (fun _ => 1) b
      _ = (∑ _e ∈ S, (1 : EReal)) * (b : EReal) := by rw [EReal.coe_one]
  -- (3) Addition of extended reals is commutative and associative, so the sum of g + (linear + bias)
  -- splits into three sums; then rewrite the last two by (1) and (2) and re-associate.
  calc ∑ e ∈ S, (g e + (∑ k, (a e k : EReal) * (w k : EReal) + (b : EReal)))
      = ∑ e ∈ S, g e + (∑ e ∈ S, ∑ k, (a e k : EReal) * (w k : EReal) + ∑ _e ∈ S, (b : EReal)) := by
        rw [Finset.sum_add_distrib, Finset.sum_add_distrib]
    _ = ∑ e ∈ S, g e + (∑ k, (∑ e ∈ S, (a e k : EReal)) * (w k : EReal)
          + (∑ _e ∈ S, (1 : EReal)) * (b : EReal)) := by rw [linear, bias]
    _ = (∑ e ∈ S, g e + ∑ k, (∑ e ∈ S, (a e k : EReal)) * (w k : EReal))
          + (∑ _e ∈ S, (1 : EReal)) * (b : EReal) := (add_assoc _ _ _).symm

end Cert.EdgeSum
-- ==== Proof.Bridge.lean ====
/-
  The two arrangements of the aggregate agree.

  The kernel's program adds up, per node, the gathered source features, the edge attributes and the number of edges
  separately, and recombines them as  aggH + aggE · We + deg * be;  the reference adds up whole messages
  g + (attributes · We + be)  edge by edge.  With real attributes, weights and bias these are one number; the gathered
  features may be any extended reals.
-/
import proofs.«154193_j30116310679888_2_alg».proof.Proof.Spec
import proofs.«154193_j30116310679888_2_alg».proof.Proof.EdgeSum
import proofs.«154193_j30116310679888_2_alg».proof.Proof.LibScatterAdd

noncomputable section

open scoped BigOperators

namespace Cert.Bridge

open Idealize.ShloMosaic Idealize.ShloMosaic.ValueIdx Cert.NodeSpec Cert.LibScatterAdd

/-- If the three parts are the sums over the edges landing on each node (each into a zero start), the bias row is the
    bias vector, and the attributes, weights and bias are real, the recombined parts are the edge-by-edge aggregate. -/
theorem aggParts_eq_aggEdges
    (aH : (⟨2, ![100000, 128]⟩ : Shape).Idx → EReal) (aE : (⟨2, ![100000, 16]⟩ : Shape).Idx → EReal)
    (dg : (⟨2, ![100000, 1]⟩ : Shape).Idx → EReal) (We : (⟨2, ![16, 128]⟩ : Shape).Idx → EReal)
    (be2 : (⟨2, ![1, 128]⟩ : Shape).Idx → EReal)
    (g : (⟨2, ![1600000, 128]⟩ : Shape).Idx → EReal) (di : IVec ⟨2, ![1600000, 1]⟩ 32)
    (ea : (⟨2, ![1600000, 16]⟩ : Shape).Idx → EReal) (be : (⟨1, ![128]⟩ : Shape).Idx → EReal)
    (hH : ∀ (n : Fin 100000) (k : Fin 128), aH (ix2 n k) = 0 + ∑ e ∈ landing di n.val, g (ix2 e k))
    (hE : ∀ (n : Fin 100000) (a : Fin 16), aE (ix2 n a) = 0 + ∑ e ∈ landing di n.val, ea (ix2 e a))
    (hD : ∀ n : Fin 100000, dg (ix2 n (0 : Fin 1)) = 0 + ∑ _e ∈ landing di n.val, (1 : EReal))
    (hb : ∀ k : Fin 128, be2 (ix2 (0 : Fin 1) k) = be (ix1 k))
    (hea : ∀ i, ∃ r : ℝ, ea i = (r : EReal)) (hWe : ∀ i, ∃ r : ℝ, We i = (r : EReal)) (hbe : ∀ i, ∃ r : ℝ, be i = (r : EReal))
    (n : Fin 100000) (k : Fin 128) :
    aggParts aH aE dg We be2 n k = aggEdges g di ea We be n k := by
  -- The attributes, the weights and the bias are real: name the real arrays whose coercions they are.
  choose rea hrea using hea
  choose rWe hrWe using hWe
  choose rbe hrbe using hbe
  -- The three parts and the bias row at the indices the aggregate reads: each part is its sum over the edges
  -- landing on node n (a sum into a zero start is the sum), with the attributes and the bias written as reals.
  have hH' : aH (ix2 n k) = ∑ e ∈ landing di n.val, g (ix2 e k) := by rw [hH n k, zero_add]
  have hE' : ∀ a : Fin 16, aE (ix2 n a) = ∑ e ∈ landing di n.val, ((rea (ix2 e a) : ℝ) : EReal) := fun a => by
    rw [hE n a, zero_add]
    exact Finset.sum_congr rfl fun e _ => hrea (ix2 e a)
  have hD' : dg (ix2 n (0 : Fin 1)) = ∑ _e ∈ landing di n.val, (1 : EReal) := by rw [hD n, zero_add]
  have hb' : be2 (ix2 (0 : Fin 1) k) = ((rbe (ix1 k) : ℝ) : EReal) := (hb k).trans (hrbe (ix1 k))
  -- The summed attributes through the weights, attribute by attribute.
  have lin : ∑ a : Fin 16, aE (ix2 n a) * We (ix2 a k)
      = ∑ a : Fin 16, (∑ e ∈ landing di n.val, ((rea (ix2 e a) : ℝ) : EReal)) * ((rWe (ix2 a k) : ℝ) : EReal) :=
    Finset.sum_congr rfl fun a _ => by rw [hE' a, hrWe (ix2 a k)]
  -- One edge's message, with its attributes, the weights and the bias written as reals.
  have msg : ∀ e : Fin 1600000,
      g (ix2 e k) + ((∑ a : Fin 16, ea (ix2 e a) * We (ix2 a k)) + be (ix1 k))
        = g (ix2 e k) + ((∑ a : Fin 16, ((rea (ix2 e a) : ℝ) : EReal) * ((rWe (ix2 a k) : ℝ) : EReal))
            + ((rbe (ix1 k) : ℝ) : EReal)) := fun e => by
    rw [hrbe (ix1 k)]
    exact congrArg (fun t => g (ix2 e k) + (t + ((rbe (ix1 k) : ℝ) : EReal)))
      (Finset.sum_congr rfl fun a _ => by rw [hrea (ix2 e a), hrWe (ix2 a k)])
  -- Parts recombined = (sum of g) + (weights on the summed attributes) + (edge count) * bias
  --                  = sum over the edges of whole messages, by the law of summing messages.
  calc aggParts aH aE dg We be2 n k
      = (aH (ix2 n k) + ∑ a : Fin 16, aE (ix2 n a) * We (ix2 a k))
          + dg (ix2 n (0 : Fin 1)) * be2 (ix2 (0 : Fin 1) k) := rfl
    _ = (∑ e ∈ landing di n.val, g (ix2 e k)
          + ∑ a : Fin 16, (∑ e ∈ landing di n.val, ((rea (ix2 e a) : ℝ) : EReal)) * ((rWe (ix2 a k) : ℝ) : EReal))
          + (∑ _e ∈ landing di n.val, (1 : EReal)) * ((rbe (ix1 k) : ℝ) : EReal) := by
        rw [hH', lin, hD', hb']
    _ = ∑ e ∈ landing di n.val, (g (ix2 e k)
          + ((∑ a : Fin 16, ((rea (ix2 e a) : ℝ) : EReal) * ((rWe (ix2 a k) : ℝ) : EReal))
            + ((rbe (ix1 k) : ℝ) : EReal))) :=
        (Cert.EdgeSum.sum_messages (landing di n.val) (fun e => g (ix2 e k)) (fun e a => rea (ix2 e a))
          (fun a => rWe (ix2 a k)) (rbe (ix1 k))).symm
    _ = ∑ e ∈ landing di n.val, (g (ix2 e k) + ((∑ a : Fin 16, ea (ix2 e a) * We (ix2 a k)) + be (ix1 k))) :=
        Finset.sum_congr rfl fun e _ => (msg e).symm
    _ = aggEdges g di ea We be n k := rfl

end Cert.Bridge

end
-- ==== Proof.KernelBridge.lean ====
/-
  The kernel's result in the reference's arrangement.

  The arrays the kernel is launched on are sums over the edges landing on each node; under the precondition the edge
  attributes, the edge weights and the edge bias are real numbers, so the recombined aggregate
  aggH + aggE · We + deg * be  is the edge-by-edge sum of whole messages, and the kernel's result array is the node
  update of that sum.
-/
import proofs.«154193_j30116310679888_2_alg».proof.Proof.KernelValue
import proofs.«154193_j30116310679888_2_alg».proof.Proof.KernelHost
import proofs.«154193_j30116310679888_2_alg».proof.Proof.Bridge

noncomputable section

open scoped BigOperators

namespace Cert.KernelIdeal.EdgeForm

open Cert.KernelIdeal Cert.KernelIdeal.Gen Cert.KernelIdeal.BlockValue Cert.KernelIdeal.HostSide
open Idealize.ShloMosaic Idealize.ShloMosaic.TcCoe Idealize.SL.Sem Idealize.ShloMosaic.ValueIdx Cert.NodeSpec Cert.LibScatterAdd

variable (m : (ℓ : Loc nD τ sig) → Buf (Elt Ideal) ℓ) (c : Dev nD)

/-- The remaining arguments on core `c`, typed as arrays. -/
abbrev a3 : FVec Ideal S16x128 .f32 := m ((c : Thread nD τ).loc main_arg3)
abbrev a5 : FVec Ideal S128x128 .f32 := m ((c : Thread nD τ).loc main_arg5)
abbrev a7 : FVec Ideal S128x128 .f32 := m ((c : Thread nD τ).loc main_arg7)

/-- With real edge attributes, weights and bias, the recombined parts are the edge-by-edge aggregate of the arguments. -/
theorem agg_eq (hea : ∀ i, ∃ r : ℝ, a2 m c i = (r : EReal)) (hWe : ∀ i, ∃ r : ℝ, a3 m c i = (r : EReal))
    (hbe : ∀ i, ∃ r : ℝ, a4 m c i = (r : EReal)) :
    aggParts (V m c main_v13) (V m c main_v16) (V m c main_v21) (a3 m c) (V m c main_v22)
      = aggEdges (gathered (a0 m c) (a1 m c)) (dstCol (a1 m c)) (a2 m c) (a3 m c) (a4 m c) :=
  funext fun n => funext fun k =>
    Cert.Bridge.aggParts_eq_aggEdges (V m c main_v13) (V m c main_v16) (V m c main_v21) (a3 m c) (V m c main_v22)
      (gathered (a0 m c) (a1 m c)) (dstCol (a1 m c)) (a2 m c) (a4 m c)
      (aggH_apply m c) (aggE_apply m c) (deg_apply m c) (be_row m c) hea hWe hbe n k

/-- THE KERNEL'S RESULT is the node update of the edge-by-edge aggregate of the program's arguments. -/
theorem result_eq_edges (hea : ∀ i, ∃ r : ℝ, a2 m c i = (r : EReal)) (hWe : ∀ i, ∃ r : ℝ, a3 m c i = (r : EReal))
    (hbe : ∀ i, ∃ r : ℝ, a4 m c i = (r : EReal)) :
    result m c = nodeOut (fun i j => a5 m c (ix2 i j)) (fun j => a6 m c (ix1 j)) (fun j f => a7 m c (ix2 j f))
        (fun f => a8 m c (ix1 f))
        (aggEdges (gathered (a0 m c) (a1 m c)) (dstCol (a1 m c)) (a2 m c) (a3 m c) (a4 m c)) := by
  have hb1 : (fun j : Fin 128 => (V m c main_v23 : S1x128.Idx → EReal) (ix2 (0 : Fin 1) j)) = fun j => a6 m c (ix1 j) :=
    funext fun j => b1_row m c j
  have hb2 : (fun f : Fin 128 => (V m c main_v24 : S1x128.Idx → EReal) (ix2 (0 : Fin 1) f)) = fun f => a8 m c (ix1 f) :=
    funext fun f => b2_row m c f
  unfold result
  rw [V_main_arg3 m c, V_main_arg5 m c, V_main_arg7 m c, hb1, hb2, agg_eq m c hea hWe hbe]

end Cert.KernelIdeal.EdgeForm

end
-- ==== Proof.RefValue.lean ====
/-
  The reference program's result, read index by index.

  The reference forms each edge's message (the gathered source feature plus the edge attributes through the edge
  weights plus the edge bias), adds the messages of the edges arriving at each node, and sends every node's row through
  two dense layers with a rectifier between.  Read at a node n and a feature f this is the two-layer map of the row of
  sums over the edges landing on n.
-/
import proofs.«154193_j30116310679888_2_alg».proof.Proof.Gen.ReferenceIdeal.Read
import proofs.«154193_j30116310679888_2_alg».proof.Proof.Spec
import proofs.«154193_j30116310679888_2_alg».proof.Proof.LibScatterAdd

noncomputable section

open scoped BigOperators

namespace Cert.ReferenceIdeal.RefValue

open Cert.ReferenceIdeal Cert.ReferenceIdeal.Gen Idealize.ShloMosaic Idealize.ShloMosaic.ValueIdx Cert.NodeSpec Cert.LibScatterAdd

/-! ## The program's index functions at an index given by its coordinates

Each layout operation and each product reads its operands at an index computed from the result's index; at the result
index `(n, f)` these are again indices given by coordinates. -/

/-- The edge product at `(e, k)`, term `a`, reads the attributes at `(e, a)` … -/
private theorem lidx_v0 (e : Fin 1600000) (k : Fin 128) (a : Fin 16) : Read.lidx_main_v0 (ix2 e k) a = ix2 e a :=
  funext fun c => Fin.ext (by match c with | ⟨0, _⟩ => rfl | ⟨1, _⟩ => rfl)
/-- … and the edge weights at `(a, k)`. -/
private theorem ridx_v0 (e : Fin 1600000) (k : Fin 128) (a : Fin 16) : Read.ridx_main_v0 (ix2 e k) a = ix2 a k :=
  funext fun c => Fin.ext (by match c with | ⟨0, _⟩ => rfl | ⟨1, _⟩ => rfl)
/-- The first layer's product at `(n, j)`, term `i`, reads the aggregate at `(n, i)` … -/
private theorem lidx_v19 (n : Fin 100000) (j i : Fin 128) : Read.lidx_main_v19 (ix2 n j) i = ix2 n i :=
  funext fun c => Fin.ext (by match c with | ⟨0, _⟩ => rfl | ⟨1, _⟩ => rfl)
/-- … and the first weights at `(i, j)`. -/
private theorem ridx_v19 (n : Fin 100000) (j i : Fin 128) : Read.ridx_main_v19 (ix2 n j) i = ix2 i j :=
  funext fun c => Fin.ext (by match c with | ⟨0, _⟩ => rfl | ⟨1, _⟩ => rfl)
/-- The second layer's product at `(n, f)`, term `j`, reads the hidden row at `(n, j)` … -/
private theorem lidx_v24 (n : Fin 100000) (f j : Fin 128) : Read.lidx_main_v24 (ix2 n f) j = ix2 n j :=
  funext fun c => Fin.ext (by match c with | ⟨0, _⟩ => rfl | ⟨1, _⟩ => rfl)
/-- … and the second weights at `(j, f)`. -/
private theorem ridx_v24 (n : Fin 100000) (f j : Fin 128) : Read.ridx_main_v24 (ix2 n f) j = ix2 j f :=
  funext fun c => Fin.ext (by match c with | ⟨0, _⟩ => rfl | ⟨1, _⟩ => rfl)

/-! ## The three bias rows, broadcast over the rows of an array -/

/-- The edge bias broadcast over the edges, read at `(e, k)`, is its entry `k`. -/
private theorem edgeBias_apply (x4 : FVec Ideal S128 .f32) (e : Fin 1600000) (k : Fin 128) :
    Read.val_main_v2 (F := Ideal) x4 (ix2 e k) = x4 (ix1 k) := by
  rw [Read.val_main_v2_apply, Read.val_main_v1_apply]
  exact congrArg x4 (funext fun c => Fin.ext (by match c with | ⟨0, _⟩ => rfl))

/-- The first layer's bias broadcast over the nodes, read at `(n, j)`, is its entry `j`. -/
private theorem bias1_apply (x6 : FVec Ideal S128 .f32) (n : Fin 100000) (j : Fin 128) :
    Read.val_main_v21 (F := Ideal) x6 (ix2 n j) = x6 (ix1 j) := by
  rw [Read.val_main_v21_apply, Read.val_main_v20_apply]
  exact congrArg x6 (funext fun c => Fin.ext (by match c with | ⟨0, _⟩ => rfl))

/-- The second layer's bias broadcast over the nodes, read at `(n, f)`, is its entry `f`. -/
private theorem bias2_apply (x8 : FVec Ideal S128 .f32) (n : Fin 100000) (f : Fin 128) :
    Read.val_main_v26 (F := Ideal) x8 (ix2 n f) = x8 (ix1 f) := by
  rw [Read.val_main_v26_apply, Read.val_main_v25_apply]
  exact congrArg x8 (funext fun c => Fin.ext (by match c with | ⟨0, _⟩ => rfl))

/-! ## The stages, from the edges to the nodes -/

section Stages
variable (x0 : FVec Ideal S100000x128 .f32) (x1 : IVec S2x1600000 32) (x2 : FVec Ideal S1600000x16 .f32)
  (x3 : FVec Ideal S16x128 .f32) (x4 : FVec Ideal S128 .f32) (x5 : FVec Ideal S128x128 .f32) (x6 : FVec Ideal S128 .f32)

/-- An edge's message at `(e, k)`: the gathered source feature plus the edge's attributes through the edge weights
    plus the edge bias. -/
private theorem message_apply (e : Fin 1600000) (k : Fin 128) :
    Read.val_main_v13 (F := Ideal) x0 x1 x2 x3 x4 (ix2 e k)
      = Read.val_main_v12 (F := Ideal) x0 x1 (ix2 e k) + ((∑ a : Fin 16, x2 (ix2 e a) * x3 (ix2 a k)) + x4 (ix1 k)) := by
  -- message = gathered + (product + broadcast bias); the product at `(e, k)` is the sum over the 16 attributes
  rw [Read.val_main_v13_apply, Ideal.addf_def, Read.val_main_v3_apply, Ideal.addf_def, Read.val_main_v0_apply,
    edgeBias_apply]
  -- and its terms read the attributes at `(e, a)` and the weights at `(a, k)`
  refine congrArg (fun t => Read.val_main_v12 (F := Ideal) x0 x1 (ix2 e k) + (t + x4 (ix1 k))) ?_
  exact Finset.sum_congr rfl fun a _ => by rw [lidx_v0, ridx_v0]

/-- The aggregate at `(n, k)`: the messages are scatter-added into the zero array along the destination column, so
    node `n` gets the sum of the messages of the edges landing on it. -/
private theorem aggregate_apply (n : Fin 100000) (k : Fin 128) :
    Read.val_main_v18 (F := Ideal) x0 x1 x2 x3 x4 (ix2 n k)
      = aggEdges (Read.val_main_v12 (F := Ideal) x0 x1) (Read.val_main_v17 (F := Ideal) x1) x2 x3 x4 n k := by
  unfold Read.val_main_v18 aggEdges
  -- a row scatter-add read at `(n, k)`: the operand there plus the updates `(e, k)` of the rows `e` landing on `n`
  refine (scatterAdd_rows_apply scatter_S100000x128_S1600000x1_S1600000x128_1_0_0_1.wf _ _ _ n k).trans ?_
  -- the operand is the zero array, and each update is an edge's message
  rw [Read.val_main_v16_apply, Read.val_main_cst_apply, Ideal.ofBits_def, Ideal.ofBits_zero_f32, zero_add]
  exact Finset.sum_congr rfl fun e _ => message_apply x0 x1 x2 x3 x4 e k

/-- The hidden row at `(n, j)`: the aggregate's row through the first weights, plus the first bias, rectified. -/
private theorem hidden_apply (n : Fin 100000) (j : Fin 128) :
    Read.val_main_v23 (F := Ideal) x0 x1 x2 x3 x4 x5 x6 (ix2 n j)
      = max ((∑ i : Fin 128,
          aggEdges (Read.val_main_v12 (F := Ideal) x0 x1) (Read.val_main_v17 (F := Ideal) x1) x2 x3 x4 n i * x5 (ix2 i j))
        + x6 (ix1 j)) 0 := by
  -- the rectifier is the maximum with the zero array; under it, the first product plus the broadcast first bias
  rw [Read.val_main_v23_apply, Ideal.maximumf_def, Read.val_main_call0_v0_apply, Read.val_main_call0_cst_apply,
    Ideal.ofBits_def, Ideal.ofBits_zero_f32, Read.val_main_v22_apply, Ideal.addf_def, Read.val_main_v19_apply, bias1_apply]
  -- the product's terms read the aggregate at `(n, i)` and the weights at `(i, j)`
  refine congrArg (fun t => max (t + x6 (ix1 j)) 0) ?_
  exact Finset.sum_congr rfl fun i _ => by rw [lidx_v19, ridx_v19, aggregate_apply]

end Stages

/-- THE REFERENCE'S RESULT is the node update of the edge-by-edge aggregate: the gathered features and the destination
    column are the program's own intermediate values, kept as they are. -/
theorem result_eq (x0 : FVec Ideal S100000x128 .f32) (x1 : IVec S2x1600000 32) (x2 : FVec Ideal S1600000x16 .f32)
    (x3 : FVec Ideal S16x128 .f32) (x4 : FVec Ideal S128 .f32) (x5 : FVec Ideal S128x128 .f32) (x6 : FVec Ideal S128 .f32)
    (x7 : FVec Ideal S128x128 .f32) (x8 : FVec Ideal S128 .f32) :
    Read.val_main_v27 (F := Ideal) x0 x1 x2 x3 x4 x5 x6 x7 x8
      = nodeOut (fun i j => x5 (ix2 i j)) (fun j => x6 (ix1 j)) (fun j f => x7 (ix2 j f)) (fun f => x8 (ix1 f))
          (aggEdges (Read.val_main_v12 (F := Ideal) x0 x1) (Read.val_main_v17 (F := Ideal) x1) x2 x3 x4) := by
  -- compare the two arrays at each index, given by its coordinates: node `n`, feature `f`
  funext i
  obtain ⟨n, f, rfl⟩ : ∃ (n : Fin 100000) (f : Fin 128), i = ix2 n f := ⟨i 0, i 1, eq_ix2 i⟩
  -- the result at `(n, f)`: the hidden row through the second weights, plus the second bias
  rw [Read.val_main_v27_apply, Ideal.addf_def, Read.val_main_v24_apply, bias2_apply]
  show _ = mlp _ _ _ _ (aggEdges _ _ x2 x3 x4 n) f
  unfold mlp
  -- the product's terms read the hidden row at `(n, j)` and the weights at `(j, f)`
  refine congrArg (fun t => t + x8 (ix1 f)) ?_
  exact Finset.sum_congr rfl fun j _ => by rw [lidx_v24, ridx_v24, hidden_apply]

end Cert.ReferenceIdeal.RefValue

end
-- ==== Proof.FiniteInputs.lean ====
/-
  From the precondition "every float input is finite" to: every entry of the edge attributes, of the edge weights
  and of the edge bias is a real number (an extended real that is neither +∞ nor −∞).

  The precondition tests each float argument x by  all(|x| < +∞)  and takes the conjunction of the eight answers.
  Read backwards: the conjunction is 1, so each answer is 1; an "all" that is 1 had a 1 at every entry; the entry
  test |x i| < +∞, with |x i| = max (x i) (−x i) in the extended reals, excludes x i = +∞ and x i = −∞ alike; and
  an extended real that is neither is a real number.
-/
import proofs.«154193_j30116310679888_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

variable [Cert.Pre_finite_inputs.Facts]

/-- The rank-0 shape has exactly one index. -/
private local instance : Subsingleton S_.Idx := ⟨fun _ _ => funext fun d => d.elim0⟩

/-- The f32 pattern 0x7F800000 (sign 0, exponent all ones, fraction 0) denotes +∞. -/
private theorem ofBits_inf : Ideal.ofBits .f32 0x7F800000#32 = (⊤ : EReal) := by
  simp [Ideal.ofBits, Ideal.ieee]

/-- An extended real whose absolute value max x (−x) lies strictly below +∞ is a real number:
    at x = −∞ the absolute value is −(−∞) = +∞, and at x = +∞ it is +∞ itself. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A decided proposition written as a one-bit word is 1 only if the proposition holds (otherwise the word is 0). -/
private theorem of_ofBool_decide_eq_one {P : Prop} [Decidable P] (h : BitVec.ofBool (decide P) = 1#1) : P := by
  by_contra hn
  rw [decide_eq_false hn] at h
  exact absurd h (by decide)

/-- One entry of the test |x| < +∞ answering 1 says that entry of x is real. -/
private theorem real_of_test {s : Shape} (hb : S_.BroadcastsInDim s (![] : Fin 0 → Fin s.rank))
    (x : FVec Ideal s .f32) (i : s.Idx)
    (h : cmpf .olt (Host.absf x) (broadcastInDim s ![] hb (constant S_ .f32 0x7F800000#32)) i = 1#1) :
    ∃ r : ℝ, x i = (r : EReal) := by
  -- Read at index i, the test compares max (x i) (−x i) with the scalar constant, by the order of the extended reals.
  have h' : BitVec.ofBool (decide (max (x i) (-(x i)) < Ideal.ofBits .f32 0x7F800000#32)) = 1#1 := h
  rw [ofBits_inf] at h'
  -- The one-bit answer is 1, so the comparison holds.
  have hlt : max (x i) (-(x i)) < ⊤ := of_ofBool_decide_eq_one h'
  exact real_of_abs_lt_top (x i) hlt

/-- The test over a whole array: if the conjunction of all its entries' answers is 1, every entry of x is real. -/
private theorem all_real {s : Shape} {axes : List (Fin s.rank)} (hb : S_.BroadcastsInDim s (![] : Fin 0 → Fin s.rank))
    (hr : s.ReducesTo axes S_) (hu : 0 < S_.numel) (x : FVec Ideal s .f32) (init : IVec S_ 1)
    (h : Host.reduce IntOp.andi (cmpf .olt (Host.absf x) (broadcastInDim s ![] hb (constant S_ .f32 0x7F800000#32)))
      init hr hu ValueIdx.ix0 = 1#1) :
    ∀ i, ∃ r : ℝ, x i = (r : EReal) :=
  fun i => real_of_test hb x i (Host.reduce_andi_all _ init hr hu ValueIdx.ix0 h i)

/-- The conjunction of two one-bit arrays is 1 at an index exactly when both are. -/
private theorem andi_eq_one_at {s : Shape} (a b : IVec s 1) (i : s.Idx) :
    andi a b i = 1#1 ↔ a i = 1#1 ∧ b i = 1#1 := IntOp.andi_eq_one

/-- If the finiteness test answers "all ones", the edge attributes (argument 2), the edge weights (argument 3) and the
    edge bias (argument 4) hold real numbers. -/
theorem real_of_pre (x0 : FVec Ideal S100000x128 .f32) (x1 : IVec S2x1600000 32) (x2 : FVec Ideal S1600000x16 .f32)
    (x3 : FVec Ideal S16x128 .f32) (x4 : FVec Ideal S128 .f32) (x5 : FVec Ideal S128x128 .f32) (x6 : FVec Ideal S128 .f32)
    (x7 : FVec Ideal S128x128 .f32) (x8 : FVec Ideal S128 .f32)
    (h : Cert.Pre_finite_inputs.fn (F := Ideal) x0 x1 x2 x3 x4 x5 x6 x7 x8 = fun _ => 1#1) :
    (∀ i, ∃ r : ℝ, x2 i = (r : EReal)) ∧ (∀ i, ∃ r : ℝ, x3 i = (r : EReal)) ∧ (∀ i, ∃ r : ℝ, x4 i = (r : EReal)) := by
  -- The answer at the one index of the rank-0 result, with the test written out: a conjunction of eight
  -- "all" reductions, one per float argument, nested to the left in the order of the arguments.
  have h0 := congrFun h ValueIdx.ix0
  dsimp only [Cert.Pre_finite_inputs.fn, Cert.Pre_finite_inputs.fn_part1, Cert.Pre_finite_inputs.fn_part2] at h0
  -- The conjunction is 1, so each of the eight answers is 1; keep those of arguments 2, 3 and 4.
  simp only [andi_eq_one_at] at h0
  obtain ⟨⟨⟨⟨⟨⟨⟨-, h2⟩, h3⟩, h4⟩, -⟩, -⟩, -⟩, -⟩ := h0
  exact ⟨all_real _ _ _ x2 _ h2, all_real _ _ _ x3 _ h3, all_real _ _ _ x4 _ h4⟩

end Cert.FiniteInputs

end
-- ==== Proof.lean ====
/-
  The certificate: a message-passing layer computed two ways.

  For every node n, the reference adds the messages of the edges arriving at n — the source node's features gathered
  along the edge, plus the edge's attributes through the edge weights, plus the edge bias — and sends the sum through
  two dense layers with a rectifier between.  The kernel's program adds up, per node, the gathered features, the edge
  attributes and a one per edge separately (three scatter-adds into zeros), and its kernel, on blocks of 2000 nodes,
  recombines them as  aggH + aggE · We + deg * be  before the same two layers.

  At the ideal instance every change of float format is the identity and every matrix product is an exact sum, so
  the two-layer map is literally the same function on both sides.  What has to be proved is that the recombined parts
  are the sum of whole messages: splitting a sum of g + (l + b) needs only commutativity and associativity of addition
  on the extended reals (the gathered features may be anything); moving the edge weights out of the sum over edges, and
  replacing the bias summed over the edges by the edge count times the bias, are distributivity, which holds because
  the precondition makes the attributes, the weights and the bias real numbers.  Edges whose destination is out of
  range are dropped by both programs alike.
-/
import proofs.«154193_j30116310679888_2_alg».proof.Defs
import proofs.«154193_j30116310679888_2_alg».proof.Proof.Gen.Kernel
import proofs.«154193_j30116310679888_2_alg».proof.Proof.Gen.Kernel.Frame
import proofs.«154193_j30116310679888_2_alg».proof.Proof.Gen.KernelIdeal
import proofs.«154193_j30116310679888_2_alg».proof.Proof.Gen.KernelIdeal.Frame
import proofs.«154193_j30116310679888_2_alg».proof.Proof.Gen.KernelIdeal.Value
import proofs.«154193_j30116310679888_2_alg».proof.Proof.Gen.ReferenceIdeal
import proofs.«154193_j30116310679888_2_alg».proof.Proof.Gen.ReferenceIdeal.Run
import proofs.«154193_j30116310679888_2_alg».proof.Proof.Gen.ReferenceIdeal.Read
import proofs.«154193_j30116310679888_2_alg».proof.Proof.Gen.Pre_finite_inputs
import proofs.«154193_j30116310679888_2_alg».proof.Proof.KernelBridge
import proofs.«154193_j30116310679888_2_alg».proof.Proof.RefValue
import proofs.«154193_j30116310679888_2_alg».proof.Proof.FiniteInputs
import Idealize.ShloMosaic.Adequacy
import Idealize.ShloMosaic.Init

noncomputable section

namespace Cert.Proof

open Idealize.ShloMosaic Idealize.ShloMosaic.TcCoe Idealize.SL.Sem

/-- Both programs gather the source features with the same start indices: one function of the arguments. -/
theorem gathered_same (x0 : FVec Ideal Cert.KernelIdeal.S100000x128 .f32) (x1 : IVec Cert.KernelIdeal.S2x1600000 32) :
    Cert.ReferenceIdeal.Read.val_main_v12 (F := Ideal) x0 x1 = Cert.KernelIdeal.HostSide.gathered x0 x1 := rfl

/-- Both programs scatter by the same destination column. -/
theorem dst_same (x1 : IVec Cert.KernelIdeal.S2x1600000 32) :
    Cert.ReferenceIdeal.Read.val_main_v17 (F := Ideal) x1 = Cert.KernelIdeal.HostSide.dstCol x1 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both runs end at the node update of the edge-by-edge aggregate of the (agreeing) arguments. -/
theorem algebraic : Cert.algebraic_KernelIdeal_ReferenceIdeal := by
  intro m ρ m' ρ' hpre hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨hea, hWe, hbe⟩ := Cert.FiniteInputs.real_of_pre _ _ _ _ _ _ _ _ _ (hpre c)
  obtain ⟨g0, g1, g2, g3, g4, g5, g6, g7, g8⟩ := hagree c
  rw [Cert.ReferenceIdeal.Read.val_main_v27_eq, Cert.ReferenceIdeal.RefValue.result_eq, g0, g1, g2, g3, g4, g5, g6, g7, g8,
    gathered_same, dst_same]
  exact (Cert.KernelIdeal.EdgeForm.result_eq_edges m c hea hWe hbe).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
